-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S16x16x64 : Shape := ⟨3, ![16, 16, 64]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S16x16x64 : S_.BroadcastsInDim S16x16x64 (![] : Fin 0 → Fin S16x16x64.rank)
  reducesTo_S16x16x64_S_d0_1_2 : S16x16x64.ReducesTo [0, 1, 2] S_

variable [Facts]

def fn {F : FTy → Type} [FloatOps F] (main_arg0 : FVec F S32768x1024 .f32) (main_arg1 : FVec F S16x16x64 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S16x16x64 .f32 := Host.absf main_arg1
  let main_cst_0 : FVec F S_ .f32 := constant S_ .f32 0x7F800000#32
  let main_v5 : FVec F S16x16x64 .f32 := broadcastInDim S16x16x64 ![] bcast_S_S16x16x64 main_cst_0
  let main_v6 : IVec S16x16x64 1 := cmpf .olt main_v4 main_v5
  let main_c_1 : IVec S_ 1 := constantI S_ 1 1#1
  let main_v7 : IVec S_ 1 := (fun x v => Host.reduce IntOp.andi x v reducesTo_S16x16x64_S_d0_1_2 h_S_) main_v6 main_c_1
  let main_v8 : IVec S_ 1 := andi main_v3 main_v7
  main_v8
-- ==== Kernel.lean ====
abbrev S32768x1024 : Shape := ⟨2, ![32768, 1024]⟩
abbrev S16x16x64 : Shape := ⟨3, ![16, 16, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S64x64x1 : Shape := ⟨3, ![64, 64, 1]⟩
abbrev S16x16x64x64 : Shape := ⟨4, ![16, 16, 64, 64]⟩
abbrev S16x64x16x64 : Shape := ⟨4, ![16, 64, 16, 64]⟩
abbrev S1024x1024 : Shape := ⟨2, ![1024, 1024]⟩

abbrev nBuf : Space → Nat
  | .hbm => 43
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S16x16x64, .f32⟩
  | .hbm, ⟨2, _⟩ => ⟨S64, .i32⟩
  | .hbm, ⟨3, _⟩ => ⟨S64x1, .i32⟩
  | .hbm, ⟨4, _⟩ => ⟨S1x64, .i32⟩
  | .hbm, ⟨5, _⟩ => ⟨S64x64, .i32⟩
  | .hbm, ⟨6, _⟩ => ⟨S64x64, .i32⟩
  | .hbm, ⟨7, _⟩ => ⟨S64x64, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S_, .i32⟩
  | .hbm, ⟨17, _⟩ => ⟨S64x64, .i32⟩
  | .hbm, ⟨18, _⟩ => ⟨S64x64, .i1⟩
  | .hbm, ⟨19, _⟩ => ⟨S_, .i32⟩
  | .hbm, ⟨20, _⟩ => ⟨S64x64, .i32⟩
  | .hbm, ⟨21, _⟩ => ⟨S64x64, .i1⟩
  | .hbm, ⟨22, _⟩ => ⟨S_, .i32⟩
  | .hbm, ⟨23, _⟩ => ⟨S_, .i1⟩
  | .hbm, ⟨24, _⟩ => ⟨S64x64, .i1⟩
  | .hbm, ⟨25, _⟩ => ⟨S64x64, .i1⟩
  | .hbm, ⟨26, _⟩ => ⟨S64x64, .i1⟩
  | .hbm, ⟨27, _⟩ => ⟨S64x64, .i32⟩
  | .hbm, ⟨28, _⟩ => ⟨S64x64, .i32⟩
  | .hbm, ⟨29, _⟩ => ⟨S64x64, .i32⟩
  | .hbm, ⟨30, _⟩ => ⟨S_, .i32⟩
  | .hbm, ⟨31, _⟩ => ⟨S64x64, .i32⟩
  | .hbm, ⟨32, _⟩ => ⟨S64x64, .i1⟩
  | .hbm, ⟨33, _⟩ => ⟨S_, .i32⟩
  | .hbm, ⟨34, _⟩ => ⟨S64x64, .i32⟩
  | .hbm, ⟨35, _⟩ => ⟨S64x64, .i32⟩
  | .hbm, ⟨36, _⟩ => ⟨S64x64, .i32⟩
  | .hbm, ⟨37, _⟩ => ⟨S64x64x1, .i32⟩
  | .hbm, ⟨38, _⟩ => ⟨S16x16x64x64, .f32⟩
  | .hbm, ⟨39, _⟩ => ⟨S16x64x16x64, .f32⟩
  | .hbm, ⟨40, _⟩ => ⟨S1024x1024, .f32⟩
  | .hbm, ⟨41, _⟩ => ⟨S1024x1024, .bf16⟩
  | .hbm, ⟨42, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_c : Ref sig .tc := ⟨.hbm, 8, rfl⟩
abbrev main_call0_call0_v0 : Ref sig .tc := ⟨.hbm, 9, rfl⟩
abbrev main_call0_call0_c : Ref sig .tc := ⟨.hbm, 10, rfl⟩
abbrev main_call0_call0_v1 : Ref sig .tc := ⟨.hbm, 11, rfl⟩
abbrev main_call0_call0_c_0 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_c_1 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_c_2 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_c_3 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_call0_v12 : Ref sig .tc := ⟨.hbm, 26, rfl⟩
abbrev main_call0_call0_v13 : Ref sig .tc := ⟨.hbm, 27, rfl⟩
abbrev main_call0_call0_v14 : Ref sig .tc := ⟨.hbm, 28, rfl⟩
abbrev main_call0_v6 : Ref sig .tc := ⟨.hbm, 29, rfl⟩
abbrev main_call0_c_0 : Ref sig .tc := ⟨.hbm, 30, rfl⟩
abbrev main_call0_v7 : Ref sig .tc := ⟨.hbm, 31, rfl⟩
abbrev main_call0_v8 : Ref sig .tc := ⟨.hbm, 32, rfl⟩
abbrev main_call0_c_1 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_v15 : Ref sig .tc := ⟨.hbm, 40, rfl⟩
abbrev main_call0_v16 : Ref sig .tc := ⟨.hbm, 41, rfl⟩
abbrev main_v0 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  transposes_S16x16x64x64_S16x64x16x64_1_3_0_2 : S16x16x64x64.Transposes [1, 3, 0, 2] S16x64x16x64
  shapeCasts_S16x64x16x64_S1024x1024 : S16x64x16x64.ShapeCasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  gather_S16x16x64_S64x64x1_S16x16x64x64_01_2_n_n_2_2_16161_wf : GatherDims.WF S16x16x64 S64x64x1 S16x16x64x64 [0, 1] [2] [] [2] [] 2 ![16, 16, 1]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S32768x1024.size a
  hwx0_2 : ∀ i : grid0.Coords, EltTy.bits .f32 = 32 ∨ (Rect.block (s := S32768x1024) S1024x1024.size (cc0_transform_2 i) (hinb0_2 i)).WholeWords (EltTy.packing .f32)

variable [Facts₀]

def gather_S16x16x64_S64x64x1_S16x16x64x64_01_2_n_n_2_2_16161 : GatherDims S16x16x64 S64x64x1 S16x16x64x64 where
  offsetDims := [0, 1]
  collapsedSliceDims := [2]
  operandBatchingDims := []
  startIndicesBatchingDims := []
  startIndexMap := [2]
  indexVectorDim := 2
  sliceSizes := ![16, 16, 1]
  wf := gather_S16x16x64_S64x64x1_S16x16x64x64_01_2_n_n_2_2_16161_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v16) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S16x16x64 : Shape := ⟨3, ![16, 16, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S64x64x1 : Shape := ⟨3, ![64, 64, 1]⟩
abbrev S16x16x64x64 : Shape := ⟨4, ![16, 16, 64, 64]⟩
abbrev S16x64x16x64 : Shape := ⟨4, ![16, 64, 16, 64]⟩
abbrev S1024x1024 : Shape := ⟨2, ![1024, 1024]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x16x64, .f32⟩
  | .hbm, ⟨2, _⟩ => ⟨S64, .i32⟩
  | .hbm, ⟨3, _⟩ => ⟨S64x1, .i32⟩
  | .hbm, ⟨4, _⟩ => ⟨S1x64, .i32⟩
  | .hbm, ⟨5, _⟩ => ⟨S64x64, .i32⟩
  | .hbm, ⟨6, _⟩ => ⟨S64x64, .i32⟩
  | .hbm, ⟨7, _⟩ => ⟨S64x64, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S_, .i32⟩
  | .hbm, ⟨17, _⟩ => ⟨S64x64, .i32⟩
  | .hbm, ⟨18, _⟩ => ⟨S64x64, .i1⟩
  | .hbm, ⟨19, _⟩ => ⟨S_, .i32⟩
  | .hbm, ⟨20, _⟩ => ⟨S64x64, .i32⟩
  | .hbm, ⟨21, _⟩ => ⟨S64x64, .i1⟩
  | .hbm, ⟨22, _⟩ => ⟨S_, .i32⟩
  | .hbm, ⟨23, _⟩ => ⟨S_, .i1⟩
  | .hbm, ⟨24, _⟩ => ⟨S64x64, .i1⟩
  | .hbm, ⟨25, _⟩ => ⟨S64x64, .i1⟩
  | .hbm, ⟨26, _⟩ => ⟨S64x64, .i1⟩
  | .hbm, ⟨27, _⟩ => ⟨S64x64, .i32⟩
  | .hbm, ⟨28, _⟩ => ⟨S64x64, .i32⟩
  | .hbm, ⟨29, _⟩ => ⟨S64x64, .i32⟩
  | .hbm, ⟨30, _⟩ => ⟨S_, .i32⟩
  | .hbm, ⟨31, _⟩ => ⟨S64x64, .i32⟩
  | .hbm, ⟨32, _⟩ => ⟨S64x64, .i1⟩
  | .hbm, ⟨33, _⟩ => ⟨S_, .i32⟩
  | .hbm, ⟨34, _⟩ => ⟨S64x64, .i32⟩
  | .hbm, ⟨35, _⟩ => ⟨S64x64, .i32⟩
  | .hbm, ⟨36, _⟩ => ⟨S64x64, .i32⟩
  | .hbm, ⟨37, _⟩ => ⟨S64x64x1, .i32⟩
  | .hbm, ⟨38, _⟩ => ⟨S16x16x64x64, .f32⟩
  | .hbm, ⟨39, _⟩ => ⟨S16x64x16x64, .f32⟩
  | .hbm, ⟨40, _⟩ => ⟨S1024x1024, .f32⟩
  | .hbm, ⟨41, _⟩ => ⟨S1024x1024, .f32⟩
  | .hbm, ⟨42, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v6 : Ref sig .tc := ⟨.hbm, 29, rfl⟩
abbrev main_c_0 : Ref sig .tc := ⟨.hbm, 30, rfl⟩
abbrev main_v7 : Ref sig .tc := ⟨.hbm, 31, rfl⟩
abbrev main_v8 : Ref sig .tc := ⟨.hbm, 32, rfl⟩
abbrev main_c_1 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩

abbrev nD : Nat := 1
abbrev τ : Topo := Topo.v7x

variable {F : FTy → Type} [FloatOps F]

class Facts₀ : Prop where
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  transposes_S16x16x64x64_S16x64x16x64_0_2_1_3 : S16x16x64x64.Transposes [0, 2, 1, 3] S16x64x16x64
  shapeCasts_S16x64x16x64_S1024x1024 : S16x64x16x64.ShapeCasts S1024x1024
  transposes_S1024x1024_S1024x1024_1_0 : S1024x1024.Transposes [1, 0] S1024x1024
  gather_S16x16x64_S64x64x1_S16x16x64x64_01_2_n_n_2_2_16161_wf : GatherDims.WF S16x16x64 S64x64x1 S16x16x64x64 [0, 1] [2] [] [2] [] 2 ![16, 16, 1]
  dot_S32768x1024_S1024x1024_S32768x1024_1_0_0_1_n_n_wf : DotDims.WF S32768x1024 S1024x1024 S32768x1024 [1] [0] [0] [1] [] []

variable [Facts₀]

def gather_S16x16x64_S64x64x1_S16x16x64x64_01_2_n_n_2_2_16161 : GatherDims S16x16x64 S64x64x1 S16x16x64x64 where
  offsetDims := [0, 1]
  collapsedSliceDims := [2]
  operandBatchingDims := []
  startIndicesBatchingDims := []
  startIndexMap := [2]
  indexVectorDim := 2
  sliceSizes := ![16, 16, 1]
  wf := gather_S16x16x64_S64x64x1_S16x16x64x64_01_2_n_n_2_2_16161_wf
def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.Dense.lean ====
/-
  The dense weight of a block-circulant layer as a re-layout of the gathered array, and the two matrix products.

  Both programs gather `B[r, q, i, j] = w[r, q, (i - j) mod 64]` (16 × 16 blocks, each 64 × 64) and multiply
  `x : [32768, 1024]` by the dense weight built from it. Output channel `o = 64 r + i`, input channel `k = 64 q + j`:
  the transposed dense weight is `Wᵀ[k, o] = B[o / 64, k / 64, o % 64, k % 64]` (`denseT`). One program builds `Wᵀ`
  directly — axes (q, j, r, i), then a reshape (`direct_layout`) —, the other builds `W` — axes (r, i, q, j), a reshape —
  and transposes it (`transposed_layout`): the same array, since a reshape keeps the row-major position and
  `(64 q + j) · 1024 + (64 r + i)` is the position of (q, j, r, i) in [16, 64, 16, 64].
  The result is `out[n, o] = ∑ k, x[n, k] · Wᵀ[k, o]` (`prodT`): the host's product contracting the 1024 input channels
  (`dotGeneral_eq_prodT`), and, block of 1024 rows by block, a product into a zero accumulator whose left operand's
  change of format is the identity on the extended reals (`block_product`).
  No program is imported; the statements are over literal shapes.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.StackMember
import Idealize.ShloMosaic.Lib.KernelVsHost

noncomputable section

open scoped BigOperators

namespace Cert.BlockCirculant

open Idealize.ShloMosaic Idealize.ShloMosaic.ValueIdx

/-- The gathered array's shape: (r, q, i, j). -/
abbrev SB : Shape := ⟨4, ![16, 16, 64, 64]⟩
/-- Two block axes interleaved with two in-block axes: (q, j, r, i) or (r, i, q, j). -/
abbrev ST : Shape := ⟨4, ![16, 64, 16, 64]⟩
/-- A dense 1024 × 1024 matrix. -/
abbrev SW : Shape := ⟨2, ![1024, 1024]⟩
/-- The activations and the result: 32768 rows of 1024 channels. -/
abbrev SX : Shape := ⟨2, ![32768, 1024]⟩

/-- The block a channel lies in … -/
def blockOf (k : Fin 1024) : Fin 16 := ⟨k.val / 64, by have := k.isLt; omega⟩
/-- … and its place inside the block: `k = 64 · blockOf k + within k`. -/
def within (k : Fin 1024) : Fin 64 := ⟨k.val % 64, Nat.mod_lt _ (by decide)⟩

section Layout
variable {α : Type}

/-- The transposed dense weight read off the gathered array: entry (k, o), input channel `k`, output channel `o`. -/
def denseT (B : SB.Idx → α) : SW.Idx → α :=
  fun j => B (ix4 (blockOf (j 1)) (blockOf (j 0)) (within (j 1)) (within (j 0)))

theorem denseT_apply (B : SB.Idx → α) (k o : Fin 1024) :
    denseT B (ix2 k o) = B (ix4 (blockOf o) (blockOf k) (within o) (within k)) := rfl

/-- Axes (r, q, i, j) permuted to (q, j, r, i) and flattened pairwise: the transposed dense weight. -/
theorem direct_layout (B : SB.Idx → α) (h1 : SB.Transposes [1, 3, 0, 2] ST) (h2 : ST.ShapeCasts SW) :
    shapeCast SW (transpose ST [1, 3, 0, 2] B h1) h2 = denseT B := by
  funext j
  obtain ⟨k, o, rfl⟩ : ∃ (k o : Fin 1024), j = ix2 k o := ⟨j 0, j 1, eq_ix2 j⟩
  have e1 := shapeCast_apply (transpose ST [1, 3, 0, 2] B h1) h2 (ix2 k o) (ix4 (blockOf k) (within k) (blockOf o) (within o)) (by
    rw [Shape.rowMajor_val_four, Shape.rowMajor_val_two]
    show (((k.val / 64) * 64 + k.val % 64) * 16 + o.val / 64) * 64 + o.val % 64 = k.val * 1024 + o.val
    have := k.isLt; have := o.isLt; omega)
  have e2 := transpose_apply [1, 3, 0, 2] B h1 (ix4 (blockOf k) (within k) (blockOf o) (within o))
    (ix4 (blockOf o) (blockOf k) (within o) (within k)) (fun b => by
      match b with
      | ⟨0, _⟩ => rfl
      | ⟨1, _⟩ => rfl
      | ⟨2, _⟩ => rfl
      | ⟨3, _⟩ => rfl)
  exact e1.trans e2

/-- Axes (r, q, i, j) permuted to (r, i, q, j) and flattened pairwise is the dense weight; its matrix transpose is the
    transposed dense weight. -/
theorem transposed_layout (B : SB.Idx → α) (h1 : SB.Transposes [0, 2, 1, 3] ST) (h2 : ST.ShapeCasts SW)
    (h3 : SW.Transposes [1, 0] SW) :
    transpose SW [1, 0] (shapeCast SW (transpose ST [0, 2, 1, 3] B h1) h2) h3 = denseT B := by
  funext j
  obtain ⟨k, o, rfl⟩ : ∃ (k o : Fin 1024), j = ix2 k o := ⟨j 0, j 1, eq_ix2 j⟩
  have e0 := transpose_apply [1, 0] (shapeCast SW (transpose ST [0, 2, 1, 3] B h1) h2) h3 (ix2 k o) (ix2 o k) (fun b => by
      match b with
      | ⟨0, _⟩ => rfl
      | ⟨1, _⟩ => rfl)
  have e1 := shapeCast_apply (transpose ST [0, 2, 1, 3] B h1) h2 (ix2 o k) (ix4 (blockOf o) (within o) (blockOf k) (within k)) (by
    rw [Shape.rowMajor_val_four, Shape.rowMajor_val_two]
    show (((o.val / 64) * 64 + o.val % 64) * 16 + k.val / 64) * 64 + k.val % 64 = o.val * 1024 + k.val
    have := k.isLt; have := o.isLt; omega)
  have e2 := transpose_apply [0, 2, 1, 3] B h1 (ix4 (blockOf o) (within o) (blockOf k) (within k))
    (ix4 (blockOf o) (blockOf k) (within o) (within k)) (fun b => by
      match b with
      | ⟨0, _⟩ => rfl
      | ⟨1, _⟩ => rfl
      | ⟨2, _⟩ => rfl
      | ⟨3, _⟩ => rfl)
  exact e0.trans (e1.trans e2)

end Layout

/-- The layer's result from the activations and the transposed dense weight: `out[n, o] = ∑ k, x[n, k] · Wᵀ[k, o]`. -/
def prodT (x : SX.Idx → EReal) (M : SW.Idx → EReal) : SX.Idx → EReal :=
  fun i => ∑ k : Fin 1024, x (ix2 (n0 := 32768) (n1 := 1024) (i 0) k) * M (ix2 (n0 := 1024) (n1 := 1024) k (i 1))

theorem prodT_apply (x : SX.Idx → EReal) (M : SW.Idx → EReal) (n : Fin 32768) (o : Fin 1024) :
    prodT x M (ix2 n o) = ∑ k : Fin 1024, x (ix2 n k) * M (ix2 k o) := rfl

/-- The host's product of the activations with a 1024 × 1024 matrix, contracting the channels, is `prodT`. -/
theorem dotGeneral_eq_prodT (wf : DotDims.WF SX SW SX [1] [0] [0] [1] [] []) (x : FVec Ideal SX .f32) (M : FVec Ideal SW .f32) :
    Host.dotGeneral (⟨[1], [0], [0], [1], [], [], wf⟩ : DotDims SX SW SX) none x M = prodT x M := by
  funext i
  obtain ⟨n, o, rfl⟩ : ∃ (n : Fin 32768) (o : Fin 1024), i = ix2 n o := ⟨i 0, i 1, eq_ix2 i⟩
  exact StackMember.dotGeneral_plain_apply (m := 32768) (n := 1024) (k := 1024) none x M n o

/-- One block of 1024 rows: the product of the block, narrowed in format (the identity on the extended reals), with a
    1024 × 1024 matrix into a zero accumulator is the plain sum over the channels. -/
theorem block_product (wf : DotDims.WF SW SW SW [1] [0] [0] [1] [] []) (xb : FVec Ideal SW .f32) (wb : FVec Ideal SW .bf16)
    (hb : (FTy.bf16).bits < (FTy.f32).bits) (hc : SW.ShapeCasts SW) (p o : Fin 1024) :
    matmul (⟨[1], [0], [0], [1], [], [], wf⟩ : DotDims SW SW SW) none (truncf .bf16 xb hb) (shapeCast SW wb hc)
        (constant SW .f32 0x00000000#32) (ix2 p o)
      = ∑ k : Fin 1024, xb (ix2 p k) * wb (ix2 k o) := by
  rw [shapeCast_self, matmul_zero_eq_dotGeneral]
  exact StackMember.dotGeneral_plain_apply (m := 1024) (n := 1024) (k := 1024) none (truncf .bf16 xb hb) wb p o

end Cert.BlockCirculant

end
-- ==== Proof.KernelValue.lean ====
/-
  The kernel's result array as one function of its arguments, at the ideal values.

  The kernel first builds, with host operations, the gathered array `B[r, q, i, j] = w[r, q, (i - j) mod 64]` and lays
  it out directly as the transposed dense weight `Wᵀ` (1024 × 1024, narrowed in format: the identity on the extended
  reals). Its one region then walks 32 grid points; point `t` reads rows `1024 t … 1024 t + 1023` of `x` and the whole
  of `Wᵀ`, and writes the same rows of the result: their product into a zero accumulator.
  So the result array ends at `out[n, o] = ∑ k, x[n, k] · Wᵀ[k, o]` (`result`): the weight operand's array is
  `denseT B` (`weight_eq`); the printed index maps send point `t` to block row `t` of `x` and of the result and to the one
  block of the weight (`index_facts`, decided over the grid); a block of `x` read at (p, k) is `x` at (1024 t + p, k)
  (`xblock_apply`), the weight's block is its array (`wblock_apply`); the body's stored value at (p, o) is the sum over
  the channels of the products of the two blocks' entries (`payload_apply`); hence what point `t` writes back is block
  `t` of `result` (`flushed_eq`), every row lies in the block of the point `n / 1024` (`covered`), and the array after
  the run is `result` (`final`, `run`).
-/
import proofs.«147529_j75754633167435_2_alg».proof.Proof.Gen.KernelIdeal.Frame
import proofs.«147529_j75754633167435_2_alg».proof.Proof.Gen.KernelIdeal.Value
import proofs.«147529_j75754633167435_2_alg».proof.Proof.Dense
import Idealize.ShloMosaic.Lib.Pipeline.Value
import Idealize.ShloMosaic.Lib.StableHlo.Run
import Idealize.ShloMosaic.Lib.Tactic

noncomputable section

open scoped BigOperators

namespace Cert.KernelIdeal.Hand

open Cert.KernelIdeal Cert.KernelIdeal.Gen Cert.KernelIdeal.Value
open Idealize.ShloMosaic Idealize.ShloMosaic.TcCoe Idealize.SL.Sem Idealize.ShloMosaic.ValueIdx Idealize.ShloMosaic.StableHlo
open Idealize.ShloMosaic.Pipeline (Dat)
open Cert.BlockCirculant

theorem hz : (![0, 0] : Fin 2 → Nat) = fun _ => 0 := funext fun a => by fin_cases a <;> rfl

/-! ## The host operations after the index table -/

section AnyValues
variable {F : FTy → Type} [FloatOps F]

/-- The host operations after the table: the gather, the axes permuted to (q, j, r, i), the reshape to 1024 × 1024, the
    narrowing of the format. -/
abbrev lastOps : List (HloOp τ sig (Elt F)) :=
  [ StableHlo.TRef.binary (.of main_arg1 : StableHlo.TRef sig ⟨S16x16x64, .f32⟩) (.of main_call0_v12 : StableHlo.TRef sig ⟨S64x64x1, .i32⟩) (.of main_call0_v13 : StableHlo.TRef sig ⟨S16x16x64x64, .f32⟩) (fun x i => Host.gather gather_S16x16x64_S64x64x1_S16x16x64x64_01_2_n_n_2_2_16161 x i),
    StableHlo.TRef.unary (.of main_call0_v13 : StableHlo.TRef sig ⟨S16x16x64x64, .f32⟩) (.of main_call0_v14 : StableHlo.TRef sig ⟨S16x64x16x64, .f32⟩) (transpose S16x64x16x64 [1, 3, 0, 2] · transposes_S16x16x64x64_S16x64x16x64_1_3_0_2),
    StableHlo.TRef.reshape (.of main_call0_v14 : StableHlo.TRef sig ⟨S16x64x16x64, .f32⟩) (.of main_call0_v15 : StableHlo.TRef sig ⟨S1024x1024, .f32⟩) rfl shapeCasts_S16x64x16x64_S1024x1024,
    StableHlo.TRef.unary (.of main_call0_v15 : StableHlo.TRef sig ⟨S1024x1024, .f32⟩) (.of main_call0_v16 : StableHlo.TRef sig ⟨S1024x1024, .bf16⟩) (truncf .bf16 · bitsLt_bf16_f32) ]

/-- The host operations before the region are the table's thirty-six and then those four. -/
theorem hostOps0_split : (hostOps0 : List (HloOp τ sig (Elt F))) = hostOps0.take 36 ++ lastOps := by
  rw [show (lastOps : List (HloOp τ sig (Elt F))) = hostOps0.drop 36 from rfl, List.take_append_drop]

/-- So what the region finds in a buffer is the four operations' fold over what the table's stretch leaves. -/
theorem V_split (m : (ℓ : Loc nD τ sig) → Buf (Elt F) ℓ) (c : Dev nD) (b : Ref sig .tc) :
    V m c b = StableHlo.after lastOps (StableHlo.after (hostOps0.take 36) (fun b => m (c, b))) b := by
  show StableHlo.after hostOps0 _ _ = _
  rw [← StableHlo.after_append, ← hostOps0_split]

/-- The four operations from any contents `W`: the weight operand ends at the gather of the second argument at the table
    `W` holds, its axes permuted to (q, j, r, i), flattened pairwise, narrowed in format … -/
theorem last_v16 (W : Valuation τ sig (Elt F)) :
    StableHlo.after lastOps W (main_call0_v16 : DevRef τ sig)
      = truncf .bf16 (shapeCast S1024x1024 (transpose S16x64x16x64 [1, 3, 0, 2]
          (Host.gather gather_S16x16x64_S64x64x1_S16x16x64x64_01_2_n_n_2_2_16161 (W (main_arg1 : DevRef τ sig)) (W (main_call0_v12 : DevRef τ sig)))
          transposes_S16x16x64x64_S16x64x16x64_1_3_0_2) shapeCasts_S16x64x16x64_S1024x1024) bitsLt_bf16_f32 := by
  after_results
  rfl

/-- … and the two buffers the gather reads are kept. -/
theorem last_arg1 (W : Valuation τ sig (Elt F)) :
    StableHlo.after lastOps W (main_arg1 : DevRef τ sig) = W (main_arg1 : DevRef τ sig) := by
  after_results
theorem last_v12 (W : Valuation τ sig (Elt F)) :
    StableHlo.after lastOps W (main_call0_v12 : DevRef τ sig) = W (main_call0_v12 : DevRef τ sig) := by
  after_results

end AnyValues

variable (m : (ℓ : Loc nD τ sig) → Buf (Elt Ideal) ℓ) (ρ : Dev nD → PrngReg)

/-! ## The weight operand as the region finds it -/

/-- The index table as the region finds it: `T[i, j, 0]`, computed by the first thirty-six host operations. -/
abbrev table (c : Dev nD) : S64x64x1.Idx → BitVec 32 := V m c main_call0_v12

/-- The gathered array: `B[r, q, i, j] = w[r, q, T[i, j]]`, of the second argument. -/
abbrev gathered (c : Dev nD) : S16x16x64x64.Idx → EReal :=
  Host.gather gather_S16x16x64_S64x64x1_S16x16x64x64_01_2_n_n_2_2_16161 (m ((c : Thread nD τ).loc main_arg1)) (table m c)

/-- The weight operand's array when the region is entered is the transposed dense weight of the gathered array (the
    narrowing of the format is the identity on the extended reals). -/
theorem weight_eq (c : Dev nD) :
    (V m c main_call0_v16 : S1024x1024.Idx → EReal) = denseT (gathered m c) := by
  have h := last_v16 (StableHlo.after (hostOps0.take 36) (fun b => m (c, b)))
  rw [← last_arg1 (StableHlo.after (hostOps0.take 36) (fun b => m (c, b))),
    ← last_v12 (StableHlo.after (hostOps0.take 36) (fun b => m (c, b))),
    ← V_split m c main_call0_v16, ← V_split m c main_arg1, ← V_split m c main_call0_v12, V_main_arg1] at h
  rw [h]
  funext j
  exact congrFun (direct_layout (gathered m c) _ _) j

/-! ## The windows' blocks -/

/-- The printed index maps over the 32 grid points: point `t` takes block row `t` of the activations and of the result,
    and the weight's one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The activations' block at point `t`, read at (p, k), is the first argument at row `1024 t + p`. -/
theorem xblock_apply (c : Dev nD) (t : Fin cfg0.N) (p k : Fin 1024) (n : Fin 32768) (hn : n.val = t.val * 1024 + p.val) :
    (iblk m c 0 t : Vec Ideal S1024x1024 .f32) (ix2 p k)
      = (m ((c : Thread nD τ).loc main_arg0) : S32768x1024.Idx → EReal) (ix2 n k) := by
  obtain ⟨e0, e1, -⟩ := index_facts t
  unfold iblk
  rw [View.read_apply]
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = n.val; rw [e0, hn]; omega
  | ⟨1, _⟩ => show win0_0.index t (1 : Fin 2) * 1024 + 1 * k.val = k.val; rw [e1]; omega

/-- The weight's block at any point is the whole weight array. -/
theorem wblock_apply (c : Dev nD) (t : Fin cfg0.N) (k o : Fin 1024) :
    (iblk m c 1 t : Vec Ideal S1024x1024 .bf16) (ix2 k o) = (V m c main_call0_v16 : S1024x1024.Idx → EReal) (ix2 k o) := by
  obtain ⟨-, -, e2, e3, -⟩ := index_facts t
  unfold iblk
  rw [View.read_apply]
  show V m c main_call0_v16 (((cfg0.win 1).blk t).view.emb (ix2 k o)) = _
  refine congrArg _ (funext fun a => Fin.ext ?_)
  match a with
  | ⟨0, _⟩ => show win0_1.index t (0 : Fin 2) * 1024 + 1 * k.val = k.val; rw [e2]; omega
  | ⟨1, _⟩ => show win0_1.index t (1 : Fin 2) * 1024 + 1 * o.val = o.val; rw [e3]; omega

/-! ## The body's stored value -/

/-- The stored value at (p, o): the sum over the channels of the products of the two loaded blocks' entries. -/
theorem payload_apply (x0 : Vec Ideal S1024x1024 .f32) (x1 : Vec Ideal S1024x1024 .bf16) (z : S1024x1024.Idx) :
    k0_pay1 x0 x1 z
      = ∑ k : Fin 1024, x0 (ix2 (n0 := 1024) (n1 := 1024) (z 0) k) * x1 (ix2 (n0 := 1024) (n1 := 1024) k (z 1)) := by
  obtain ⟨p, o, rfl⟩ : ∃ (p o : Fin 1024), z = ix2 p o := ⟨z 0, z 1, eq_ix2 z⟩
  unfold k0_pay1
  exact block_product _ x0 x1 _ _ p o

/-! ## From blocks to the array -/

/-- The layer's result: the activations times the transposed dense weight of the gathered array. -/
abbrev result (c : Dev nD) : Buf (Elt Ideal) ((c : Thread nD τ).loc main_v0) :=
  prodT (m ((c : Thread nD τ).loc main_arg0)) (denseT (gathered m c))

/-- What point `t` writes back is block `t` of `result`. -/
theorem flushed_eq (c : Dev nD) (t : Fin cfg0.N) :
    (dats m 0 c).flushed 2 t = ((cfg0.win 2).blk t).view.read (Elt Ideal) (result m c) := by
  obtain ⟨-, -, -, -, e4, e5⟩ := index_facts t
  have ht : t.val < 32 := by
    have h1 : t.val < cfg0.N := t.isLt
    have h2 : cfg0.N = 32 := N_0
    omega
  rw [flushed2]
  unfold out0_2
  rw [View.canon_unit_zero hz]
  simp only [View.ld_unit_zero (S := S1024x1024) hz]
  funext y
  have hp : (y 0).val < 1024 := (y 0).isLt
  have ho : (y 1).val < 1024 := (y 1).isLt
  rw [View.read_apply]
  show k0_pay1 (iblk m c 0 t) (iblk m c 1 t) ((cfg0.win 2).xinj (grid0.coords t) y)
    = result m c (((cfg0.win 2).blk t).view.emb y)
  rw [payload_apply]
  have hemb : ((cfg0.win 2).blk t).view.emb y
      = ix2 (⟨t.val * 1024 + (y 0).val, by omega⟩ : Fin 32768) (⟨(y 1).val, ho⟩ : Fin 1024) := by
    funext a; apply Fin.ext
    match a with
    | ⟨0, _⟩ => show win0_2.index t (0 : Fin 2) * 1024 + 1 * (y 0).val = t.val * 1024 + (y 0).val; rw [e4]; omega
    | ⟨1, _⟩ => show win0_2.index t (1 : Fin 2) * 1024 + 1 * (y 1).val = (y 1).val; rw [e5]; omega
  rw [hemb]
  show _ = prodT _ _ (ix2 _ _)
  rw [prodT_apply]
  refine Finset.sum_congr rfl fun k _ => ?_
  refine congrArg₂ (· * ·) ?_ ?_
  · exact xblock_apply m c t ⟨(y 0).val, hp⟩ k _ rfl
  · refine (wblock_apply m c t k ⟨(y 1).val, ho⟩).trans ?_
    rw [weight_eq]

/-- Every row of the result lies in the block of the point `n / 1024`. -/
theorem covered (i : S32768x1024.Idx) :
    ∃ t : Fin cfg0.N, (cfg0.win 2).flush t = true ∧ i ∈ ((cfg0.win 2).blk t).view.set := by
  have hi0 : (i 0).val < 32768 := idx2_lt0 i
  have hi1 : (i 1).val < 1024 := idx2_lt1 i
  have hlt : (i 0).val / 1024 < cfg0.N := by
    show _ < grid0.N
    rw [N_0]; omega
  obtain ⟨-, -, -, -, e4, e5⟩ := index_facts ⟨(i 0).val / 1024, hlt⟩
  refine ⟨⟨(i 0).val / 1024, hlt⟩, flush0_2 _, ?_⟩
  show i ∈ ((View.whole main_v0).slice (win0_2.rect ⟨(i 0).val / 1024, hlt⟩)).set
  rw [View.set_slice_whole, Rect.mem_set_unit]
  intro a
  match a with
  | ⟨0, _⟩ =>
    show win0_2.index ⟨(i 0).val / 1024, hlt⟩ (0 : Fin 2) * 1024 ≤ (i 0).val
      ∧ (i 0).val < win0_2.index ⟨(i 0).val / 1024, hlt⟩ (0 : Fin 2) * 1024 + 1024
    rw [e4]
    show (i 0).val / 1024 * 1024 ≤ (i 0).val ∧ (i 0).val < (i 0).val / 1024 * 1024 + 1024
    omega
  | ⟨1, _⟩ =>
    show win0_2.index ⟨(i 0).val / 1024, hlt⟩ (1 : Fin 2) * 1024 ≤ (i 1).val
      ∧ (i 1).val < win0_2.index ⟨(i 0).val / 1024, hlt⟩ (1 : Fin 2) * 1024 + 1024
    rw [e5]
    omega

/-- The result array after the run. -/
theorem final (c : Dev nD) : (dats m 0 c).arrAt 2 cfg0.N = result m c :=
  (dats m 0 c).arrAt_eq_of_cover 2 (result m c) (fun t _ => flushed_eq m c t) covered

/-- Every weakly fair execution of the kernel's program terminates with the result array at `result` and the arguments
    unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Hand

end
-- ==== Proof.RefRun.lean ====
/-
  The reference program as a straight line of host operations, and its run.

  The reference builds the dense weight of a block-circulant layer and multiplies: with `w : [16, 16, 64]` the table
  `T[i, j] = (i - j) mod 64` is computed on 64 × 64 integers (the outlined `remainder` and its `where`, then the
  wrap of a negative index), the gather reads `B[r, q, i, j] = w[r, q, T[i, j]]`, the dense weight is
  `W[64 r + i, 64 q + j] = B[r, q, i, j]` (a transpose of the two middle axes and a reshape), and the result is
  `x · Wᵀ` (a transpose and a product contracting the 1024 input channels).

  Written here: the operations in program order, the two outlined functions' operations at their call sites over the
  call's own buffers, in two stretches — the thirty-six that compute the index table (`idxOps`) and the five that gather,
  re-lay and multiply (`tailOps`); that @main is that line (`main_eq`); the run, every buffer ending at the fold of the
  operations over the launch contents (`run_fold`); and the fold read at the result and at the arguments: the result is the
  product of the first argument with the re-laid gather of the second at the index table (`result_eq`), the arguments are
  kept (`arg0_eq`, `arg1_eq`). The table's entries are never opened: the other program computes it by the same operations.
-/
import proofs.«147529_j75754633167435_2_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The thirty-six operations of the index table: six for `i - j` on 64 × 64, the constant 64, the twenty-one of
    `remainder` (one of them its `where`), seven wrapping a negative index and adding the index vector's unit axis. -/
abbrev idxOps : List (HloOp τ sig (Elt F)) :=
  [
    StableHlo.nullary main_v0 (iotaInDim S64 32 0),
    StableHlo.unary main_v0 main_v1 (broadcastInDim S64x1 ![0] bcast_S64_S64x1_0 : (⟨S64, .i32⟩ : BufTy).Contents (Elt F) → (⟨S64x1, .i32⟩ : BufTy).Contents (Elt F)),
    StableHlo.unary main_v0 main_v2 (broadcastInDim S1x64 ![1] bcast_S64_S1x64_1 : (⟨S64, .i32⟩ : BufTy).Contents (Elt F) → (⟨S1x64, .i32⟩ : BufTy).Contents (Elt F)),
    StableHlo.unary main_v1 main_v3 (broadcastInDim S64x64 ![0, 1] bcast_S64x1_S64x64_0_1 : (⟨S64x1, .i32⟩ : BufTy).Contents (Elt F) → (⟨S64x64, .i32⟩ : BufTy).Contents (Elt F)),
    StableHlo.unary main_v2 main_v4 (broadcastInDim S64x64 ![0, 1] bcast_S1x64_S64x64_0_1 : (⟨S1x64, .i32⟩ : BufTy).Contents (Elt F) → (⟨S64x64, .i32⟩ : BufTy).Contents (Elt F)),
    StableHlo.binary main_v3 main_v4 main_v5 (subi : (⟨S64x64, .i32⟩ : BufTy).Contents (Elt F) → (⟨S64x64, .i32⟩ : BufTy).Contents (Elt F) → (⟨S64x64, .i32⟩ : BufTy).Contents (Elt F)),
    StableHlo.nullary main_c (constantI S_ 32 64#32),
    StableHlo.TRef.unary (.of main_c) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S64x64 ![] bcast_S_S64x64),
    StableHlo.TRef.binary (.of main_v5) main_call0.v3 main_call0.v4 Host.remsi,
    StableHlo.TRef.nullary main_call0.c_1 (constantI S_ 32 0#32),
    StableHlo.TRef.unary main_call0.c_1 main_call0.v5 (broadcastInDim S64x64 ![] bcast_S_S64x64),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S64x64 ![] bcast_S_S64x64),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S64x64 ![] bcast_S_S64x64),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S64x64 ![] bcast_S_S64x64),
    StableHlo.TRef.binary main_call0.v4 main_call0.v13 main_call0.v14 addi,
    StableHlo.TRef.ternary main_call0.v12 main_call0.v14 main_call0.v4 main_call0.v15 select,
    StableHlo.nullary main_c_0 (constantI S_ 32 0#32),
    StableHlo.unary main_c_0 main_v7 (broadcastInDim S64x64 ![] bcast_S_S64x64 : (⟨S_, .i32⟩ : BufTy).Contents (Elt F) → (⟨S64x64, .i32⟩ : BufTy).Contents (Elt F)),
    StableHlo.binary main_v6 main_v7 main_v8 (cmpi .slt : (⟨S64x64, .i32⟩ : BufTy).Contents (Elt F) → (⟨S64x64, .i32⟩ : BufTy).Contents (Elt F) → (⟨S64x64, .i1⟩ : BufTy).Contents (Elt F)),
    StableHlo.nullary main_c_1 (constantI S_ 32 64#32),
    StableHlo.unary main_c_1 main_v9 (broadcastInDim S64x64 ![] bcast_S_S64x64 : (⟨S_, .i32⟩ : BufTy).Contents (Elt F) → (⟨S64x64, .i32⟩ : BufTy).Contents (Elt F)),
    StableHlo.binary main_v6 main_v9 main_v10 (addi : (⟨S64x64, .i32⟩ : BufTy).Contents (Elt F) → (⟨S64x64, .i32⟩ : BufTy).Contents (Elt F) → (⟨S64x64, .i32⟩ : BufTy).Contents (Elt F)),
    StableHlo.ternary main_v8 main_v10 main_v6 main_v11 (select : (⟨S64x64, .i1⟩ : BufTy).Contents (Elt F) → (⟨S64x64, .i32⟩ : BufTy).Contents (Elt F) → (⟨S64x64, .i32⟩ : BufTy).Contents (Elt F) → (⟨S64x64, .i32⟩ : BufTy).Contents (Elt F)),
    StableHlo.unary main_v11 main_v12 (broadcastInDim S64x64x1 ![0, 1] bcast_S64x64_S64x64x1_0_1 : (⟨S64x64, .i32⟩ : BufTy).Contents (Elt F) → (⟨S64x64x1, .i32⟩ : BufTy).Contents (Elt F)) ]

/-- Then five: the gather, the transpose of the middle axes, the reshape to 1024 × 1024, the matrix transpose, the product. -/
abbrev tailOps : List (HloOp τ sig (Elt F)) :=
  [
    StableHlo.binary main_arg1 main_v12 main_v13 ((fun x i => Host.gather gather_S16x16x64_S64x64x1_S16x16x64x64_01_2_n_n_2_2_16161 x i) : (⟨S16x16x64, .f32⟩ : BufTy).Contents (Elt F) → (⟨S64x64x1, .i32⟩ : BufTy).Contents (Elt F) → (⟨S16x16x64x64, .f32⟩ : BufTy).Contents (Elt F)),
    StableHlo.unary main_v13 main_v14 ((transpose S16x64x16x64 [0, 2, 1, 3] · transposes_S16x16x64x64_S16x64x16x64_0_2_1_3) : (⟨S16x16x64x64, .f32⟩ : BufTy).Contents (Elt F) → (⟨S16x64x16x64, .f32⟩ : BufTy).Contents (Elt F)),
    StableHlo.reshape main_v14 main_v15 rfl shapeCasts_S16x64x16x64_S1024x1024,
    StableHlo.unary main_v15 main_v16 ((transpose S1024x1024 [1, 0] · transposes_S1024x1024_S1024x1024_1_0) : (⟨S1024x1024, .f32⟩ : BufTy).Contents (Elt F) → (⟨S1024x1024, .f32⟩ : BufTy).Contents (Elt F)),
    StableHlo.binary main_arg0 main_v16 main_v17 ((fun l r => Host.dotGeneral dot_S32768x1024_S1024x1024_S32768x1024_1_0_0_1_n_n none l r) : (⟨S32768x1024, .f32⟩ : BufTy).Contents (Elt F) → (⟨S1024x1024, .f32⟩ : BufTy).Contents (Elt F) → (⟨S32768x1024, .f32⟩ : BufTy).Contents (Elt F)) ]

/-- @main's 41 operations, in order. -/
abbrev ops : List (HloOp τ sig (Elt F)) := idxOps ++ tailOps

-- forty-one binds re-associated
set_option maxRecDepth 2048 in
/-- @main is that straight line: the outlined functions unfolded at their calls, sequencing re-associated. -/
theorem main_eq (c : Dev nD) : main (F := F) c = seq ops := by
  simp only [main, fn_remainder.body, fn_where.body, ops, idxOps, tailOps, List.cons_append, List.nil_append, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub ..⟩

/-- From any memory with zero counters every weakly fair execution of @main terminates, each buffer ending at the fold
    of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold, read -/

/-- The index table the gather reads, from contents `V`: `T[i, j, 0]`. -/
abbrev table (V : Valuation τ sig (Elt F)) : S64x64x1.Idx → BitVec 32 := after idxOps V (main_v12 : DevRef τ sig)

/-- The last five operations from any contents `W`: the product of the first argument with the gather of the second at
    the table `W` holds, re-laid — the middle axes exchanged, flattened to 1024 × 1024, transposed. -/
theorem tail_result (W : Valuation τ sig (Elt F)) :
    after tailOps W (main_v17 : DevRef τ sig)
      = Host.dotGeneral dot_S32768x1024_S1024x1024_S32768x1024_1_0_0_1_n_n none (W (main_arg0 : DevRef τ sig))
          (transpose S1024x1024 [1, 0]
            (shapeCast S1024x1024
              (transpose S16x64x16x64 [0, 2, 1, 3]
                (Host.gather gather_S16x16x64_S64x64x1_S16x16x64x64_01_2_n_n_2_2_16161 (W (main_arg1 : DevRef τ sig)) (W (main_v12 : DevRef τ sig)))
                transposes_S16x16x64x64_S16x64x16x64_0_2_1_3)
              shapeCasts_S16x64x16x64_S1024x1024)
            transposes_S1024x1024_S1024x1024_1_0) := by
  after_results
  rfl

theorem tail_arg0 (W : Valuation τ sig (Elt F)) : after tailOps W (main_arg0 : DevRef τ sig) = W (main_arg0 : DevRef τ sig) := by
  after_results
theorem tail_arg1 (W : Valuation τ sig (Elt F)) : after tailOps W (main_arg1 : DevRef τ sig) = W (main_arg1 : DevRef τ sig) := by
  after_results

/-- No operation of the table's stretch writes an argument. -/
theorem idx_arg0 (V : Valuation τ sig (Elt F)) : after idxOps V (main_arg0 : DevRef τ sig) = V (main_arg0 : DevRef τ sig) := by
  after_results_simp
theorem idx_arg1 (V : Valuation τ sig (Elt F)) : after idxOps V (main_arg1 : DevRef τ sig) = V (main_arg1 : DevRef τ sig) := by
  after_results_simp

/-- The fold at the result buffer. -/
theorem result_eq (V : Valuation τ sig (Elt F)) :
    after ops V (main_v17 : DevRef τ sig)
      = Host.dotGeneral dot_S32768x1024_S1024x1024_S32768x1024_1_0_0_1_n_n none (V (main_arg0 : DevRef τ sig))
          (transpose S1024x1024 [1, 0]
            (shapeCast S1024x1024
              (transpose S16x64x16x64 [0, 2, 1, 3]
                (Host.gather gather_S16x16x64_S64x64x1_S16x16x64x64_01_2_n_n_2_2_16161 (V (main_arg1 : DevRef τ sig)) (table V))
                transposes_S16x16x64x64_S16x64x16x64_0_2_1_3)
              shapeCasts_S16x64x16x64_S1024x1024)
            transposes_S1024x1024_S1024x1024_1_0) := by
  show after (idxOps ++ tailOps) V _ = _
  rw [StableHlo.after_append, tail_result, idx_arg0, idx_arg1]

/-- No operation writes the first argument … -/
theorem arg0_eq (V : Valuation τ sig (Elt F)) : after ops V (main_arg0 : DevRef τ sig) = V (main_arg0 : DevRef τ sig) := by
  show after (idxOps ++ tailOps) V _ = _
  rw [StableHlo.after_append, tail_arg0, idx_arg0]

/-- … nor the second. -/
theorem arg1_eq (V : Valuation τ sig (Elt F)) : after ops V (main_arg1 : DevRef τ sig) = V (main_arg1 : DevRef τ sig) := by
  show after (idxOps ++ tailOps) V _ = _
  rw [StableHlo.after_append, tail_arg1, idx_arg1]

end Cert.ReferenceIdeal.Hand

end
-- ==== Proof.RefValue.lean ====
/-
  The reference's result array as one function of its arguments, at the ideal values.

  The reference's fold at its result buffer is the host's product of the first argument with the gather of the second,
  re-laid: axes (r, q, i, j) to (r, i, q, j), flattened pairwise to the dense weight `W`, transposed. That re-layout is
  the transposed dense weight `Wᵀ[k, o] = B[o / 64, k / 64, o % 64, k % 64]`, and the product contracting the channels
  is `out[n, o] = ∑ k, x[n, k] · Wᵀ[k, o]` (`result_value`); the run is re-posted with that value (`run`).
-/
import proofs.«147529_j75754633167435_2_alg».proof.Proof.RefRun
import proofs.«147529_j75754633167435_2_alg».proof.Proof.Dense

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.BlockCirculant

/-- The gathered array from contents `V`: `B[r, q, i, j] = w[r, q, T[i, j]]`, of the second argument at the table. -/
abbrev gathered (V : Valuation τ sig (Elt Ideal)) : S16x16x64x64.Idx → EReal :=
  Host.gather gather_S16x16x64_S64x64x1_S16x16x64x64_01_2_n_n_2_2_16161 (V (main_arg1 : DevRef τ sig)) (table V)

/-- The fold at the result buffer is the activations times the transposed dense weight of the gathered array. -/
theorem result_value (V : Valuation τ sig (Elt Ideal)) :
    (after ops V (main_v17 : DevRef τ sig) : S32768x1024.Idx → EReal)
      = prodT (V (main_arg0 : DevRef τ sig)) (denseT (gathered V)) := by
  rw [result_eq]
  exact (dotGeneral_eq_prodT _ _ _).trans (congrArg _ (transposed_layout (gathered V) _ _ _))

/-- Every weakly fair execution of the reference terminates with its result at that value of the launch contents and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17)
          = prodT (m ((c.tc : Thread nD τ).loc main_arg0))
              (denseT (Host.gather gather_S16x16x64_S64x64x1_S16x16x64x64_01_2_n_n_2_2_16161
                (m ((c.tc : Thread nD τ).loc main_arg1)) (table (launchContents m c))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v17).trans (result_value (launchContents m c)),
      (h c main_arg0).trans (arg0_eq (launchContents m c)),
      (h c main_arg1).trans (arg1_eq (launchContents m c))⟩)
    (run_fold m ρ)

end Cert.ReferenceIdeal.Hand

end
-- ==== Proof.Tables.lean ====
/-
  The two programs' index tables are one table.

  Both programs compute `T[i, j] = (i - j) mod 64` by the same thirty-six host operations — an iota, two broadcasts and
  a difference, the outlined `remainder` with its `where`, the wrap of a negative index, the index vector's unit axis —
  reading no argument: the table the kernel's region finds is the table of the reference's fold, whatever the memories
  (`table_eq`). Neither side's entries are evaluated; the two composed terms are compared as they stand.
-/
import proofs.«147529_j75754633167435_2_alg».proof.Proof.Gen.KernelIdeal.Frame
import proofs.«147529_j75754633167435_2_alg».proof.Proof.RefRun
import Idealize.ShloMosaic.Lib.StableHlo.Run

noncomputable section

namespace Cert.Proof.Tables

open Idealize.ShloMosaic Idealize.ShloMosaic.TcCoe Idealize.SL.Sem Idealize.ShloMosaic.StableHlo

variable {F : FTy → Type} [FloatOps F]

set_option maxRecDepth 8192 in
/-- The index table as the kernel's region finds it is the table of the reference's fold from any contents. -/
theorem table_eq (m : (ℓ : Loc Cert.KernelIdeal.nD Cert.KernelIdeal.τ Cert.KernelIdeal.sig) → Buf (Elt F) ℓ)
    (c : Dev Cert.KernelIdeal.nD) (V' : Valuation Cert.ReferenceIdeal.τ Cert.ReferenceIdeal.sig (Elt F)) :
    (Cert.KernelIdeal.Gen.V m c Cert.KernelIdeal.main_call0_v12 : Cert.KernelIdeal.S64x64x1.Idx → BitVec 32)
      = Cert.ReferenceIdeal.Hand.table V' := by
  dsimp only [Cert.KernelIdeal.Gen.V, Cert.KernelIdeal.Gen.hostOps0, Cert.ReferenceIdeal.Hand.table,
    Cert.ReferenceIdeal.Hand.idxOps]
  after_results_simp
  rfl

end Cert.Proof.Tables

end
-- ==== Proof.lean ====
/-
  A block-circulant linear layer, against its reference, over the extended reals.

  Both programs take activations `x : [32768, 1024]` and a factor `w : [16, 16, 64]`, gather
  `B[r, q, i, j] = w[r, q, (i - j) mod 64]`, and return `out[n, 64 r + i] = ∑ q j, x[n, 64 q + j] · B[r, q, i, j]`.
  The reference lays `B` out as the dense weight `W` (1024 × 1024) and multiplies by its transpose on the host; the
  kernel lays `B` out directly as `Wᵀ`, narrows it to a shorter format, and multiplies block of 1024 rows by block in one
  region of 32 grid points, each product into a zero accumulator.
  At the ideal values a change of format is the identity and both products are the plain sum over the 1024 input
  channels, so both results are `prodT x (denseT B)` (Proof/Dense.lean): the kernel's by its blocks (Proof/KernelValue.lean),
  the reference's by its run (Proof/RefRun.lean, Proof/RefValue.lean); the two `B` are one array because the two index
  tables are one table (Proof/Tables.lean) and the arguments agree. No finiteness is used: the two sums have the same terms
  in the same order. The three frames are the generated frame runs and the reference's run; the idealization rewrote no
  operation, so there is nothing to preserve.
-/
import proofs.«147529_j75754633167435_2_alg».proof.Defs
import proofs.«147529_j75754633167435_2_alg».proof.Proof.Gen.Kernel
import proofs.«147529_j75754633167435_2_alg».proof.Proof.Gen.Kernel.Frame
import proofs.«147529_j75754633167435_2_alg».proof.Proof.Gen.KernelIdeal
import proofs.«147529_j75754633167435_2_alg».proof.Proof.Gen.KernelIdeal.Frame
import proofs.«147529_j75754633167435_2_alg».proof.Proof.Gen.KernelIdeal.Value
import proofs.«147529_j75754633167435_2_alg».proof.Proof.Gen.ReferenceIdeal
import proofs.«147529_j75754633167435_2_alg».proof.Proof.Gen.Pre_finite_inputs
import proofs.«147529_j75754633167435_2_alg».proof.Proof.KernelValue
import proofs.«147529_j75754633167435_2_alg».proof.Proof.RefValue
import proofs.«147529_j75754633167435_2_alg».proof.Proof.Tables
import Idealize.ShloMosaic.Adequacy
import Idealize.ShloMosaic.Init

noncomputable section

namespace Cert.Proof

open Idealize.ShloMosaic Idealize.ShloMosaic.TcCoe Idealize.SL.Sem Idealize.ShloMosaic.StableHlo

/-- The kernel's program as printed runs and keeps its arguments: the generated frame run. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

attribute [local irreducible] Host.gather in
/-- From memories agreeing on the arguments both programs end with the activations times the transposed dense weight of
    the gathered array: the kernel's gather reads the second argument at its table, the reference's reads its own second
    argument, the same array, at its own table, the same table. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Hand.run m' ρ')
  have ht := Cert.Proof.Tables.table_eq m c (launchContents m' c)
  show _ = Cert.BlockCirculant.prodT _ (Cert.BlockCirculant.denseT
    (Host.gather _ _ (Cert.KernelIdeal.Gen.V m c Cert.KernelIdeal.main_call0_v12)))
  rw [ht, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
